-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256x16 : Shape := ⟨2, ![256, 16]⟩
abbrev S1048576 : Shape := ⟨1, ![1048576]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256x16 : S_.BroadcastsInDim S256x16 (![] : Fin 0 → Fin S256x16.rank)
  reducesTo_S256x16_S_d0_1 : S256x16.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S256x16 .f32) (main_arg2 : IVec S1048576 32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S256x16 : Shape := ⟨2, ![256, 16]⟩
abbrev S1048576 : Shape := ⟨1, ![1048576]⟩
abbrev S4096 : Shape := ⟨1, ![4096]⟩
abbrev S_ : Shape := ⟨0, ![]⟩
abbrev S1048576x1 : Shape := ⟨2, ![1048576, 1]⟩
abbrev S1048576x16 : Shape := ⟨2, ![1048576, 16]⟩
abbrev S4096x4096 : Shape := ⟨2, ![4096, 4096]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 19
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S256x16, .f32⟩
  | .hbm, ⟨2, _⟩ => ⟨S1048576, .i32⟩
  | .hbm, ⟨3, _⟩ => ⟨S4096, .f32⟩
  | .hbm, ⟨4, _⟩ => ⟨S_, .i32⟩
  | .hbm, ⟨5, _⟩ => ⟨S1048576, .i32⟩
  | .hbm, ⟨6, _⟩ => ⟨S1048576, .i1⟩
  | .hbm, ⟨7, _⟩ => ⟨S_, .i32⟩
  | .hbm, ⟨8, _⟩ => ⟨S1048576, .i32⟩
  | .hbm, ⟨9, _⟩ => ⟨S1048576, .i32⟩
  | .hbm, ⟨10, _⟩ => ⟨S1048576, .i32⟩
  | .hbm, ⟨11, _⟩ => ⟨S1048576x1, .i32⟩
  | .hbm, ⟨12, _⟩ => ⟨S1048576x16, .f32⟩
  | .hbm, ⟨13, _⟩ => ⟨S4096x4096, .f32⟩
  | .hbm, ⟨14, _⟩ => ⟨S4096x4096, .bf16⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  shapeCasts_S1048576x16_S4096x4096 : S1048576x16.ShapeCasts S4096x4096
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  gather_S256x16_S1048576x1_S1048576x16_1_0_n_n_0_1_116_wf : GatherDims.WF S256x16 S1048576x1 S1048576x16 [1] [0] [] [0] [] 1 ![1, 16]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S256x16_S1048576x1_S1048576x16_1_0_n_n_0_1_116 : GatherDims S256x16 S1048576x1 S1048576x16 where
  offsetDims := [1]
  collapsedSliceDims := [0]
  operandBatchingDims := []
  startIndicesBatchingDims := []
  startIndexMap := [0]
  indexVectorDim := 1
  sliceSizes := ![1, 16]
  wf := gather_S256x16_S1048576x1_S1048576x16_1_0_n_n_0_1_116_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v9) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S256x16 : Shape := ⟨2, ![256, 16]⟩
abbrev S1048576 : Shape := ⟨1, ![1048576]⟩
abbrev S4096 : Shape := ⟨1, ![4096]⟩
abbrev S_ : Shape := ⟨0, ![]⟩
abbrev S1048576x1 : Shape := ⟨2, ![1048576, 1]⟩
abbrev S1048576x16 : Shape := ⟨2, ![1048576, 16]⟩
abbrev S4096x4096 : Shape := ⟨2, ![4096, 4096]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256x16, .f32⟩
  | .hbm, ⟨2, _⟩ => ⟨S1048576, .i32⟩
  | .hbm, ⟨3, _⟩ => ⟨S4096, .f32⟩
  | .hbm, ⟨4, _⟩ => ⟨S_, .i32⟩
  | .hbm, ⟨5, _⟩ => ⟨S1048576, .i32⟩
  | .hbm, ⟨6, _⟩ => ⟨S1048576, .i1⟩
  | .hbm, ⟨7, _⟩ => ⟨S_, .i32⟩
  | .hbm, ⟨8, _⟩ => ⟨S1048576, .i32⟩
  | .hbm, ⟨9, _⟩ => ⟨S1048576, .i32⟩
  | .hbm, ⟨10, _⟩ => ⟨S1048576, .i32⟩
  | .hbm, ⟨11, _⟩ => ⟨S1048576x1, .i32⟩
  | .hbm, ⟨12, _⟩ => ⟨S1048576x16, .f32⟩
  | .hbm, ⟨13, _⟩ => ⟨S4096x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  shapeCasts_S1048576x16_S4096x4096 : S1048576x16.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256x16_S1048576x1_S1048576x16_1_0_n_n_0_1_116_wf : GatherDims.WF S256x16 S1048576x1 S1048576x16 [1] [0] [] [0] [] 1 ![1, 16]
  dot_S4x2048x4096_S4096x4096_S4x2048x4096_2_1_01_0_n_n_wf : DotDims.WF S4x2048x4096 S4096x4096 S4x2048x4096 [2] [1] [0, 1] [0] [] []

variable [Facts₀]

def gather_S256x16_S1048576x1_S1048576x16_1_0_n_n_0_1_116 : GatherDims S256x16 S1048576x1 S1048576x16 where
  offsetDims := [1]
  collapsedSliceDims := [0]
  operandBatchingDims := []
  startIndicesBatchingDims := []
  startIndexMap := [0]
  indexVectorDim := 1
  sliceSizes := ![1, 16]
  wf := gather_S256x16_S1048576x1_S1048576x16_1_0_n_n_0_1_116_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.BlockedDot.lean ====
/-
  The mathematics of a dense layer whose contraction axis is cut into four blocks of 1024.

  For matrices X (8192 × 4096) and W (4096 × 4096) of extended reals and a bias row B (1 × 4096), entry (r, o) of the
  layer is  z + Σ_{s < 4} ( Σ_{l < 1024} X[r, 1024 s + l] · W[o, 1024 s + l] ) + B[0, o]  — the products of row r of X
  with row o of W, summed block by block along the shared axis, then the bias. Addition of extended reals is
  associative and commutative (no cancellation is used), so the four block sums add up to the one sum over all 4096
  columns: `linear_apply`. Matrices are read at natural-number coordinates (zero outside the extents), which lets a
  block's entry be named by arithmetic on its position without carrying bounds.
-/
import Idealize.ShloMosaic.PureOps.Ideal.Laws
import Idealize.ShloMosaic.Lib.ValueIdx

noncomputable section

open scoped BigOperators
open Idealize.ShloMosaic Idealize.ShloMosaic.ValueIdx

namespace Cert.Linear

/-- A matrix of extended reals read at natural-number coordinates: its entry inside the extents, zero outside. -/
def at2 {R C : ℕ} (A : (⟨2, ![R, C]⟩ : Shape).Idx → EReal) (r c : ℕ) : EReal :=
  if h : r < R ∧ c < C then A (ix2 ⟨r, h.1⟩ ⟨c, h.2⟩) else 0

/-- Inside the extents it is the entry. -/
theorem at2_of_lt {R C : ℕ} (A : (⟨2, ![R, C]⟩ : Shape).Idx → EReal) {r c : ℕ} (hr : r < R) (hc : c < C) :
    at2 A r c = A (ix2 ⟨r, hr⟩ ⟨c, hc⟩) := dif_pos ⟨hr, hc⟩

/-- At the coordinates of an index it is the entry at that index. -/
theorem at2_ix2 {R C : ℕ} (A : (⟨2, ![R, C]⟩ : Shape).Idx → EReal) (r : Fin R) (c : Fin C) :
    at2 A r.val c.val = A (ix2 r c) := at2_of_lt A r.isLt c.isLt

/-- The sum of the first 1024·(n+1) terms of a sequence is the sum of its first n+1 blocks of 1024 terms. -/
theorem sum_range_blocks (f : ℕ → EReal) (n : ℕ) :
    ∑ k ∈ Finset.range (1024 * (n + 1)), f k
      = ∑ s ∈ Finset.range (n + 1), ∑ l ∈ Finset.range 1024, f (1024 * s + l) := by
  induction n with
  | zero => simp
  | succ n ih =>
    rw [Nat.mul_succ, Finset.sum_range_add, ih, Finset.sum_range_succ _ (n + 1)]

/-- Four blocks of 1024 terms are the 4096 terms. -/
theorem sum_four_blocks (f : ℕ → EReal) :
    ∑ s ∈ Finset.range 4, ∑ l : Fin 1024, f (1024 * s + l.val) = ∑ k : Fin 4096, f k.val := by
  rw [Fin.sum_univ_eq_sum_range f 4096, show (4096 : ℕ) = 1024 * (3 + 1) from rfl, sum_range_blocks f 3]
  exact Finset.sum_congr rfl fun s _ => Fin.sum_univ_eq_sum_range (fun l => f (1024 * s + l)) 1024

/-- Row `r` of `X` against row `o` of `W` over the `s`-th block of 1024 consecutive columns: the sum of the products. -/
def blockDot (X : (⟨2, ![8192, 4096]⟩ : Shape).Idx → EReal) (W : (⟨2, ![4096, 4096]⟩ : Shape).Idx → EReal)
    (r o s : ℕ) : EReal :=
  ∑ l : Fin 1024, at2 X r (1024 * s + l.val) * at2 W o (1024 * s + l.val)

/-- THE LAYER, block by block: entry (r, o) is `z` plus the four block sums of row r of X against row o of W, plus the
    bias at column o. -/
def linear (z : EReal) (X : (⟨2, ![8192, 4096]⟩ : Shape).Idx → EReal) (W : (⟨2, ![4096, 4096]⟩ : Shape).Idx → EReal)
    (B : (⟨2, ![1, 4096]⟩ : Shape).Idx → EReal) : (⟨2, ![8192, 4096]⟩ : Shape).Idx → EReal :=
  fun i => (z + ∑ s ∈ Finset.range 4, blockDot X W (i 0).val (i 1).val s) + at2 B 0 (i 1).val

/-- The layer's entry (r, o) is `z` plus the whole inner product of the two rows, plus the bias: the block sums
    re-associated into one sum over the 4096 columns. -/
theorem linear_apply (z : EReal) (X : (⟨2, ![8192, 4096]⟩ : Shape).Idx → EReal)
    (W : (⟨2, ![4096, 4096]⟩ : Shape).Idx → EReal) (B : (⟨2, ![1, 4096]⟩ : Shape).Idx → EReal)
    (r : Fin 8192) (o : Fin 4096) :
    linear z X W B (ix2 r o) = (z + ∑ k : Fin 4096, X (ix2 r k) * W (ix2 o k)) + B (ix2 (0 : Fin 1) o) := by
  show (z + ∑ s ∈ Finset.range 4, ∑ l : Fin 1024, at2 X r.val (1024 * s + l.val) * at2 W o.val (1024 * s + l.val))
      + at2 B 0 o.val = _
  rw [sum_four_blocks (fun k => at2 X r.val k * at2 W o.val k)]
  have hB : at2 B 0 o.val = B (ix2 (0 : Fin 1) o) := at2_ix2 B (0 : Fin 1) o
  rw [hB]
  refine congrArg (fun t => (z + t) + B (ix2 (0 : Fin 1) o)) (Finset.sum_congr rfl fun k _ => ?_)
  rw [at2_ix2 X r k, at2_ix2 W o k]

end Cert.Linear

end
-- ==== Proof.Blocks.lean ====
/-
  Where each window's block sits, and each input block read at the coordinates of its array.

  The grid has 128 points t = 16 i + 4 j + k with i < 8 (row block of x), j < 4 (row block of w, i.e. column block of the
  output), k < 4 (block of the shared contraction axis). At point t the x window reads rows 1024 i … and columns
  1024 k … of the 8192 × 4096 array; the w window rows 1024 j … and columns 1024 k … of the 4096 × 4096 array; the bias
  window columns 1024 j … of the 1 × 4096 row; the output window rows 1024 i … and columns 1024 j … of the result.
-/
import proofs.«161693_j6751688589354_1_alg».proof.Proof.Gen.KernelIdeal.Frame
import proofs.«161693_j6751688589354_1_alg».proof.Proof.BlockedDot

noncomputable section

open Idealize.ShloMosaic Idealize.ShloMosaic.TcCoe Idealize.SL.Sem Idealize.ShloMosaic.ValueIdx

namespace Cert.KernelIdeal.Blocks

open Cert.KernelIdeal Cert.KernelIdeal.Gen Cert.Linear

variable (m : (ℓ : Loc nD τ sig) → Buf (Elt Ideal) ℓ)

/-- The block indices of the four windows at point t, in closed form: decided once over the grid. -/
theorem index_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The x operand as the region finds it: an 8192 × 4096 matrix of extended reals. -/
abbrev xMat (c : Dev nD) : (⟨2, ![8192, 4096]⟩ : Shape).Idx → EReal := V m c main_v9
/-- The w operand as the region finds it: a 4096 × 4096 matrix. -/
abbrev wMat (c : Dev nD) : (⟨2, ![4096, 4096]⟩ : Shape).Idx → EReal := V m c main_v8
/-- The bias operand as the region finds it: a 1 × 4096 row. -/
abbrev bRow (c : Dev nD) : (⟨2, ![1, 4096]⟩ : Shape).Idx → EReal := V m c main_v10

/-- Entry (p, l) of the x block at point t is entry (1024 (t / 16) + p, 1024 (t % 4) + l) of x. -/
theorem x_block (c : Dev nD) (t : Fin cfg0.N) (p l : Fin 1024) :
    (iblk m c 0 t : Vec Ideal S1024x1024 .f32) (ix2 p l)
      = at2 (xMat m c) (1024 * (t.val / 16) + p.val) (1024 * (t.val % 4) + l.val) := by
  have hN : t.val < 128 := lt_of_lt_of_eq t.isLt (show cfg0.N = 128 from N_0)
  obtain ⟨e0, e1, -⟩ := index_facts t
  rw [at2_of_lt (xMat m c) (by omega : 1024 * (t.val / 16) + p.val < 8192) (by omega : 1024 * (t.val % 4) + l.val < 4096)]
  show V m c main_v9 (((cfg0.win 0).blk t).view.emb (ix2 p l)) = V m c main_v9 _
  refine congrArg (V m c main_v9) (funext fun a => Fin.ext ?_)
  match a with
  | ⟨0, _⟩ => show win0_0.index t (0 : Fin 2) * 1024 + 1 * p.val = 1024 * (t.val / 16) + p.val; omega
  | ⟨1, _⟩ => show win0_0.index t (1 : Fin 2) * 1024 + 1 * l.val = 1024 * (t.val % 4) + l.val; omega

/-- Entry (q, l) of the w block at point t is entry (1024 (t / 4 % 4) + q, 1024 (t % 4) + l) of w. -/
theorem w_block (c : Dev nD) (t : Fin cfg0.N) (q l : Fin 1024) :
    (iblk m c 1 t : Vec Ideal S1024x1024 .bf16) (ix2 q l)
      = at2 (wMat m c) (1024 * (t.val / 4 % 4) + q.val) (1024 * (t.val % 4) + l.val) := by
  have hN : t.val < 128 := lt_of_lt_of_eq t.isLt (show cfg0.N = 128 from N_0)
  obtain ⟨-, -, e0, e1, -⟩ := index_facts t
  rw [at2_of_lt (wMat m c) (by omega : 1024 * (t.val / 4 % 4) + q.val < 4096) (by omega : 1024 * (t.val % 4) + l.val < 4096)]
  show V m c main_v8 (((cfg0.win 1).blk t).view.emb (ix2 q l)) = V m c main_v8 _
  refine congrArg (V m c main_v8) (funext fun a => Fin.ext ?_)
  match a with
  | ⟨0, _⟩ => show win0_1.index t (0 : Fin 2) * 1024 + 1 * q.val = 1024 * (t.val / 4 % 4) + q.val; omega
  | ⟨1, _⟩ => show win0_1.index t (1 : Fin 2) * 1024 + 1 * l.val = 1024 * (t.val % 4) + l.val; omega

/-- Entry (0, q) of the bias block at point t is entry (0, 1024 (t / 4 % 4) + q) of the bias row. -/
theorem b_block (c : Dev nD) (t : Fin cfg0.N) (q : Fin 1024) :
    (iblk m c 2 t : Vec Ideal S1x1024 .f32) (ix2 (0 : Fin 1) q)
      = at2 (bRow m c) 0 (1024 * (t.val / 4 % 4) + q.val) := by
  have hN : t.val < 128 := lt_of_lt_of_eq t.isLt (show cfg0.N = 128 from N_0)
  obtain ⟨-, -, -, -, e0, e1, -⟩ := index_facts t
  rw [at2_of_lt (bRow m c) (by omega : 0 < 1) (by omega : 1024 * (t.val / 4 % 4) + q.val < 4096)]
  show V m c main_v10 (((cfg0.win 2).blk t).view.emb (ix2 (0 : Fin 1) q)) = V m c main_v10 _
  refine congrArg (V m c main_v10) (funext fun a => Fin.ext ?_)
  match a with
  | ⟨0, _⟩ => show win0_2.index t (0 : Fin 2) * 1 + 1 * 0 = 0; omega
  | ⟨1, _⟩ => show win0_2.index t (1 : Fin 2) * 1024 + 1 * q.val = 1024 * (t.val / 4 % 4) + q.val; omega

end Cert.KernelIdeal.Blocks

end
-- ==== Proof.Payloads.lean ====
/-
  The kernel body's three stored values, each read at one entry (p, q) of its 1024 × 1024 tile, on the extended reals.

  * the reset value is the zero word everywhere;
  * the accumulation step stores  acc[p, q] + Σ_{l < 1024} x[p, l] · w[q, l]  — the tile product contracts the SECOND
    axis of both operands (x · wᵀ), into a zero accumulator, and the narrowing of x to bf16 is the identity on extended
    reals;
  * the last step stores  acc[p, q] + b[0, q]  — the bias row repeated down the rows.
-/
import proofs.«161693_j6751688589354_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The tile product's dimension numbers: both operands contract their second axis. -/
abbrev tileDot : DotDims S1024x1024 S1024x1024 S1024x1024 := dot_S1024x1024_S1024x1024_S1024x1024_1_1_0_0_n_n

/-- The left operand is read at the output's row … -/
theorem lhs_row (j : S1024x1024.Idx) (k : tileDot.contr.Idx) : (tileDot.lhsIdx j k 0).val = (j 0).val := by
  unfold DotDims.lhsIdx
  rw [dif_neg (show ¬(0 : Fin S1024x1024.rank) ∈ tileDot.lhsBatch by decide),
    dif_pos (show (0 : Fin S1024x1024.rank) ∈ tileDot.lhsNonContracting by decide)]
  rfl
/-- … and the contraction coordinate; -/
theorem lhs_col (j : S1024x1024.Idx) (k : tileDot.contr.Idx) : (tileDot.lhsIdx j k 1).val = (k ⟨0, by decide⟩).val :=
  tileDot.lhsIdx_val_of_single rfl j k
/-- the right operand at the output's COLUMN (its own row) … -/
theorem rhs_row (j : S1024x1024.Idx) (k : tileDot.contr.Idx) : (tileDot.rhsIdx j k 0).val = (j 1).val := by
  unfold DotDims.rhsIdx
  rw [dif_neg (show ¬(0 : Fin S1024x1024.rank) ∈ tileDot.rhsBatch by decide),
    dif_pos (show (0 : Fin S1024x1024.rank) ∈ tileDot.rhsNonContracting by decide)]
  rfl
/-- … and the contraction coordinate. -/
theorem rhs_col (j : S1024x1024.Idx) (k : tileDot.contr.Idx) : (tileDot.rhsIdx j k 1).val = (k ⟨0, by decide⟩).val :=
  tileDot.rhsIdx_val_of_single rfl j k

/-- The tile product into a zero accumulator at (p, q): the inner product of row p of the left operand with row q of
    the right one. -/
theorem tile_product_apply (x : FVec Ideal S1024x1024 .bf16) (w : FVec Ideal S1024x1024 .bf16) (p q : Fin 1024) :
    FloatOps.matmul tileDot none x w (constant (F := Ideal) S1024x1024 .f32 0x00000000#32) (ix2 p q)
      = ∑ l : Fin 1024, x (ix2 p l) * w (ix2 q l) := by
  refine (Ideal.matmul_constant_zero_apply tileDot none x w (ix2 p q)).trans ?_
  rw [← Equiv.sum_comp (contrEquiv1 tileDot 1024 rfl rfl).symm]
  refine Finset.sum_congr rfl fun l _ => ?_
  have hk := contrEquiv1_symm_val tileDot 1024 rfl rfl l
  have el : tileDot.lhsIdx (ix2 p q) ((contrEquiv1 tileDot 1024 rfl rfl).symm l) = ix2 p l :=
    funext fun a => Fin.ext (by
      match a with
      | ⟨0, _⟩ => exact lhs_row _ _
      | ⟨1, _⟩ => exact (lhs_col _ _).trans hk)
  have er : tileDot.rhsIdx (ix2 p q) ((contrEquiv1 tileDot 1024 rfl rfl).symm l) = ix2 q l :=
    funext fun a => Fin.ext (by
      match a with
      | ⟨0, _⟩ => exact rhs_row _ _
      | ⟨1, _⟩ => exact (rhs_col _ _).trans hk)
  rw [el, er]

/-- The reset value is the zero word at every entry. -/
theorem reset_apply (i : S1024x1024.Idx) : k0_pay1 (F := Ideal) i = Ideal.ofBits .f32 0x00000000#32 := by
  unfold k0_pay1
  exact congrFun (shapeCast_self _ _) i

/-- The accumulation step at (p, q): what the accumulator held there plus the inner product of row p of the x tile with
    row q of the w tile. -/
theorem step_apply (x : Vec Ideal S1024x1024 .f32) (w : Vec Ideal S1024x1024 .bf16) (acc : Vec Ideal S1024x1024 .f32)
    (p q : Fin 1024) :
    k0_pay2 (F := Ideal) x w acc (ix2 p q) = acc (ix2 p q) + ∑ l : Fin 1024, x (ix2 p l) * w (ix2 q l) := by
  unfold k0_pay2
  simp only [shapeCast_self]
  exact congrArg (acc (ix2 p q) + ·) (tile_product_apply (truncf .bf16 x bitsLt_bf16_f32) w p q)

/-- The last step at (p, q): the accumulator there plus the bias row at column q. -/
theorem bias_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  simp only [shapeCast_self]
  exact congrArg (acc (ix2 p q) + ·) (broadcastTo_1b_ab_apply b broadcasts_S1x1024_S1024x1024 p q)

end Cert.KernelIdeal.Payload

end
-- ==== Proof.Pieces.lean ====
/-
  What each control case of the kernel body leaves behind, as a value of the blocks it was given.

  The body runs in one of three cases, by the position k along the contraction axis of the grid:
  * first block (k = 0): the accumulator is reset to zero and the first tile product is added to it;
  * a middle block: the tile product is added to what the accumulator held;
  * last block (k = 3): the same, and then the accumulator plus the bias row is stored into the output tile.
  Every store covers its whole buffer, so a buffer's final contents are its last store's value, and a load that follows
  a store reads that store's value.
-/
import proofs.«161693_j6751688589354_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero_offsets : (![0, 0] : Fin 2 → Nat) = fun _ => 0 := funext fun a => by fin_cases a <;> rfl

/-- First block: the accumulator ends at the accumulation step applied to the reset value. -/
theorem acc_first (c : Dev nD) (i : grid0.Coords) (a3 : Memref sig .tc .vmem S1024x1024 .f32) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x1024 .f32) (x1 : Vec F S1024x1024 .bf16) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) zero_offsets, View.readCov_unit_zero (S := S1024x1024) _ zero_offsets]
  simp only [View.readAt_eq_ld, h3.read_unread, h4.read_unread, View.ld_unit_zero (S := S1024x1024) zero_offsets]

/-- A middle block: the accumulator ends at the accumulation step applied to what it held. -/
theorem acc_middle (c : Dev nD) (i : grid0.Coords) (a3 : Memref sig .tc .vmem S1024x1024 .f32) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 : Vec F S1024x1024 .f32) (x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero zero_offsets]
  simp only [View.readAt_eq_ld, h3.read_unread, h4.read_unread, h7.read_unread, View.ld_unit_zero (S := S1024x1024) zero_offsets]

/-- Last block: the accumulator likewise … -/
theorem acc_last (c : Dev nD) (i : grid0.Coords) (a3 : Memref sig .tc .vmem S1024x1024 .f32) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x1024 .f32) (x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero zero_offsets]
  simp only [View.readAt_eq_ld, h3.read_unread, h4.read_unread, h7.read_unread, View.ld_unit_zero (S := S1024x1024) zero_offsets]

/-- … and the output tile ends at the bias step applied to that accumulator and the bias row. -/
theorem out_last (c : Dev nD) (i : grid0.Coords) (a3 : Memref sig .tc .vmem S1024x1024 .f32) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x1024 .f32) (x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero zero_offsets, View.readCov_unit_zero (S := S1024x1024) _ zero_offsets]
  simp only [View.readAt_eq_ld, h3.read_unread, h4.read_unread, h5.read_unread, h7.read_unread,
    View.ld_unit_zero (S := S1024x1024) zero_offsets, View.ld_unit_zero (S := S1x1024) zero_offsets]

end Cert.KernelIdeal.Pieces

end
-- ==== Proof.Accumulate.lean ====
/-
  The accumulator over a run of four grid points, and the output tile the last of them stores.

  Points 4 u, 4 u + 1, 4 u + 2, 4 u + 3 share their x row block and w row block and walk the four blocks of the
  contraction axis. The first resets the accumulator to zero and adds its tile product; each later one adds its own. So
  after the last, entry (p, q) of the accumulator is zero plus the four block sums of row 1024 i + p of x against row
  1024 j + q of w, in point order; the output tile is that plus the bias at column 1024 j + q — the layer's entry
  (1024 i + p, 1024 j + q).
-/
import proofs.«161693_j6751688589354_1_alg».proof.Proof.Blocks
import proofs.«161693_j6751688589354_1_alg».proof.Proof.Payloads
import proofs.«161693_j6751688589354_1_alg».proof.Proof.Pieces
import Idealize.ShloMosaic.Lib.Pipeline.Value

noncomputable section

open scoped BigOperators
open Idealize.ShloMosaic Idealize.ShloMosaic.TcCoe Idealize.SL.Sem Idealize.ShloMosaic.ValueIdx

namespace Cert.KernelIdeal.Accumulate

open Cert.KernelIdeal Cert.KernelIdeal.Gen Cert.Linear Cert.KernelIdeal.Blocks

variable (m : (ℓ : Loc nD τ sig) → Buf (Elt Ideal) ℓ)

/-- The f32 zero word, as an extended real. -/
abbrev zero : EReal := Ideal.ofBits .f32 0x00000000#32

/-- What the accumulator holds after point `n`. -/
def accAfter (c : Dev nD) (n : ℕ) (h : n < cfg0.N) : S1024x1024.Idx → EReal := (outsAt0 m c n h).2

/-- The accumulator after a point that resets it: the accumulation step on the reset value. -/
def resetAt (c : Dev nD) (n : ℕ) (h : n < cfg0.N) : S1024x1024.Idx → EReal :=
  k0_pay2 (F := Ideal) (iblk m c 0 ⟨n, h⟩) (iblk m c 1 ⟨n, h⟩) (k0_pay1 (F := Ideal))

/-- The accumulator after a point that adds to what it held. -/
def stepAt (c : Dev nD) (n : ℕ) (h : n < cfg0.N) (acc : S1024x1024.Idx → EReal) : S1024x1024.Idx → EReal :=
  k0_pay2 (F := Ideal) (iblk m c 0 ⟨n, h⟩) (iblk m c 1 ⟨n, h⟩) acc

/-- Point `n`'s addend at entry (p, q): its block sum of row 1024 (n / 16) + p of x against row 1024 (n / 4 % 4) + q of w. -/
def addend (c : Dev nD) (n : ℕ) (i : S1024x1024.Idx) : EReal :=
  blockDot (xMat m c) (wMat m c) (1024 * (n / 16) + (i 0).val) (1024 * (n / 4 % 4) + (i 1).val) (n % 4)

/-- The accumulation step at point `n` adds that point's addend, entry by entry. -/
theorem step_at (c : Dev nD) (n : ℕ) (h : n < cfg0.N) (acc : S1024x1024.Idx → EReal) (p q : Fin 1024) :
    stepAt m c n h acc (ix2 p q) = acc (ix2 p q) + addend m c n (ix2 p q) := by
  unfold stepAt addend blockDot
  refine (Payload.step_apply _ _ acc p q).trans ?_
  refine congrArg (acc (ix2 p q) + ·) (Finset.sum_congr rfl fun l _ => ?_)
  exact congrArg₂ (· * ·) (x_block m c ⟨n, h⟩ p l) (w_block m c ⟨n, h⟩ q l)

/-- At the first point of a run the accumulator is the reset followed by the step. -/
theorem acc_reset (c : Dev nD) (n : ℕ) (h : n < cfg0.N) (h0 : n % 4 = 0) : accAfter m c n h = resetAt m c n h := by
  have h1 : ¬n % 4 = 3 := by omega
  unfold accAfter resetAt
  rw [outsAt0_A m c ⟨n, h⟩ h0 h1]
  dsimp only
  exact Pieces.acc_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N))

/-- At every other point it is the step on what the point before left. -/
theorem acc_step (c : Dev nD) (n : ℕ) (h : n + 1 < cfg0.N) (hne : ¬(n + 1) % 4 = 0) :
    accAfter m c (n + 1) h = stepAt m c (n + 1) h (accAfter m c n (Nat.lt_of_succ_lt h)) := by
  unfold accAfter stepAt
  by_cases h1 : (n + 1) % 4 = 3
  · rw [outsAt0_C m c ⟨n + 1, h⟩ hne h1]
    dsimp only
    exact Pieces.acc_last (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) (fun hh => hne ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (outsAt0 m c n (Nat.lt_of_succ_lt h)).2
  · rw [outsAt0_B m c ⟨n + 1, h⟩ hne h1]
    dsimp only
    exact Pieces.acc_middle (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) (fun hh => hne ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (outsAt0 m c n (Nat.lt_of_succ_lt h)).2

/-- After the last point of a run, entry (p, q) of the accumulator: zero plus the four block sums. -/
theorem acc_at_last (c : Dev nD) (t : Fin cfg0.N) (h3 : t.val % 4 = 3) (p q : Fin 1024) :
    accAfter m c t.val t.isLt (ix2 p q)
      = zero + ∑ s ∈ Finset.range 4,
          blockDot (xMat m c) (wMat m c) (1024 * (t.val / 16) + p.val) (1024 * (t.val / 4 % 4) + q.val) s := by
  have hb : 4 * (t.val / 4) + t.val % 4 < cfg0.N := by rw [Nat.div_add_mod]; exact t.isLt
  rw [Pipeline.eq_accAt_of_mod (accAfter m c) 4 (resetAt m c) (stepAt m c) (acc_reset m c) (acc_step m c) (by decide)
    t.val t.isLt hb]
  rw [Pipeline.accAt_add_apply (resetAt m c) (stepAt m c) (fun _ => zero) (addend m c) (4 * (t.val / 4)) 3
    (fun h i => by
      obtain ⟨p, q, rfl⟩ : ∃ p q : Fin 1024, i = ix2 p q := ⟨i 0, i 1, eq_ix2 i⟩
      exact (step_at m c _ h (k0_pay1 (F := Ideal)) p q).trans
        (congrArg (· + addend m c (4 * (t.val / 4)) (ix2 p q)) (Payload.reset_apply (ix2 p q))))
    (fun n h acc i _ _ => by
      obtain ⟨p, q, rfl⟩ : ∃ p q : Fin 1024, i = ix2 p q := ⟨i 0, i 1, eq_ix2 i⟩
      exact step_at m c n h acc p q)
    (t.val % 4) (by omega) hb (ix2 p q)]
  rw [h3]
  refine congrArg (zero + ·) (Finset.sum_congr rfl fun s hs => ?_)
  have hs' : s < 4 := Finset.mem_range.mp hs
  have e1 : (4 * (t.val / 4) + s) / 16 = t.val / 16 := by omega
  have e2 : (4 * (t.val / 4) + s) / 4 % 4 = t.val / 4 % 4 := by omega
  have e3 : (4 * (t.val / 4) + s) % 4 = s := by omega
  unfold addend
  rw [e1, e2, e3]

/-- The layer at an index given by its coordinates, unfolded once. -/
theorem linear_at (z : EReal) (X : (⟨2, ![8192, 4096]⟩ : Shape).Idx → EReal) (W : (⟨2, ![4096, 4096]⟩ : Shape).Idx → EReal)
    (B : (⟨2, ![1, 4096]⟩ : Shape).Idx → EReal) (r o : ℕ) (hr : r < 8192) (ho : o < 4096) :
    linear z X W B (ix2 ⟨r, hr⟩ ⟨o, ho⟩) = (z + ∑ s ∈ Finset.range 4, blockDot X W r o s) + at2 B 0 o := rfl

/-- THE OUTPUT TILE the last point of a run stores: entry (p, q) is the layer's entry (1024 i + p, 1024 j + q). -/
theorem out_at_last (c : Dev nD) (t : Fin cfg0.N) (h3 : t.val % 4 = 3) (p q : Fin 1024)
    (hr : 1024 * (t.val / 16) + p.val < 8192) (ho : 1024 * (t.val / 4 % 4) + q.val < 4096) :
    ((outsAt0 m c t.val t.isLt).1 : S1024x1024.Idx → EReal) (ix2 p q)
      = linear zero (xMat m c) (wMat m c) (bRow m c) (ix2 ⟨1024 * (t.val / 16) + p.val, hr⟩ ⟨1024 * (t.val / 4 % 4) + q.val, ho⟩) := by
  have h0 : ¬t.val % 4 = 0 := by omega
  have hacc : accAfter m c t.val t.isLt
      = k0_pay2 (F := Ideal) (iblk m c 0 t) (iblk m c 1 t) (outsAt0 m c (t.val - 1) (Nat.lt_of_le_of_lt (Nat.sub_le _ _) t.isLt)).2 := by
    unfold accAfter
    rw [outsAt0_C m c t h0 h3]
    dsimp only
    exact Pieces.acc_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h3) (iblk m c 0 t) (iblk m c 1 t) (iblk m c 2 t) (outsAt0 m c (t.val - 1) (Nat.lt_of_le_of_lt (Nat.sub_le _ _) t.isLt)).2
  have hout : (outsAt0 m c t.val t.isLt).1
      = k0_pay3 (F := Ideal) (k0_pay2 (F := Ideal) (iblk m c 0 t) (iblk m c 1 t) (outsAt0 m c (t.val - 1) (Nat.lt_of_le_of_lt (Nat.sub_le _ _) t.isLt)).2) (iblk m c 2 t) := by
    rw [outsAt0_C m c t h0 h3]
    dsimp only
    exact Pieces.out_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h3) (iblk m c 0 t) (iblk m c 1 t) (iblk m c 2 t) (outsAt0 m c (t.val - 1) (Nat.lt_of_le_of_lt (Nat.sub_le _ _) t.isLt)).2
  rw [hout, ← hacc]
  refine (Payload.bias_apply _ _ p q).trans ?_
  rw [acc_at_last m c t h3 p q, b_block m c t q]
  exact (linear_at zero (xMat m c) (wMat m c) (bRow m c) _ _ hr ho).symm

end Cert.KernelIdeal.Accumulate

end
-- ==== Proof.Layer.lean ====
/-
  The layer on the arrays as the two programs are given them: x of shape 4 × 2048 × 4096, the weight matrix
  4096 × 4096, the bias a vector of 4096, the result 4 × 2048 × 4096.

  Folding the two leading axes of x into one (row 2048 b + s), laying the bias out as one row, applying the blocked layer
  and unfolding the rows again gives, at (b, s, o),  z + Σ_{k < 4096} x[b, s, k] · w[o, k] + bias[o].  The reshapes keep
  row-major positions, so they only rename indices.
-/
import proofs.«161693_j6751688589354_1_alg».proof.Proof.BlockedDot
import Idealize.ShloMosaic.Lib.Pipeline.Value
import Idealize.ShloMosaic.Lib.ValueLayout

noncomputable section

open scoped BigOperators
open Idealize.ShloMosaic Idealize.ShloMosaic.ValueIdx

namespace Cert.Linear

/-- A 4 × 2048 × 4096 array folded to 8192 × 4096 reads, at row 2048 b + s, the array at (b, s, ·). -/
theorem fold_rows_apply {α : Type} (x : (⟨3, ![4, 2048, 4096]⟩ : Shape).Idx → α)
    (h : (⟨3, ![4, 2048, 4096]⟩ : Shape).ShapeCasts ⟨2, ![8192, 4096]⟩) (b : Fin 4) (s : Fin 2048) (k : Fin 4096)
    (hr : 2048 * b.val + s.val < 8192) :
    shapeCast ⟨2, ![8192, 4096]⟩ x h (ix2 ⟨2048 * b.val + s.val, hr⟩ k) = x (ix3 b s k) :=
  shapeCast_apply x h _ _ (by
    rw [Shape.rowMajor_val_two, Shape.rowMajor_val_three]
    show (b.val * 2048 + s.val) * 4096 + k.val = (2048 * b.val + s.val) * 4096 + k.val
    omega)

/-- An 8192 × 4096 matrix unfolded to 4 × 2048 × 4096 reads, at (b, s, ·), its row 2048 b + s. -/
theorem unfold_rows_apply {α : Type} (y : (⟨2, ![8192, 4096]⟩ : Shape).Idx → α)
    (h : (⟨2, ![8192, 4096]⟩ : Shape).ShapeCasts ⟨3, ![4, 2048, 4096]⟩) (b : Fin 4) (s : Fin 2048) (o : Fin 4096)
    (hr : 2048 * b.val + s.val < 8192) :
    shapeCast ⟨3, ![4, 2048, 4096]⟩ y h (ix3 b s o) = y (ix2 ⟨2048 * b.val + s.val, hr⟩ o) :=
  shapeCast_apply y h _ _ (by
    rw [Shape.rowMajor_val_two, Shape.rowMajor_val_three]
    show (2048 * b.val + s.val) * 4096 + o.val = (b.val * 2048 + s.val) * 4096 + o.val
    omega)

/-- THE LAYER on the programs' arrays: fold x's rows, lay the bias as a row, apply the blocked layer, unfold the rows. -/
def layer (z : EReal) (h1 : (⟨3, ![4, 2048, 4096]⟩ : Shape).ShapeCasts ⟨2, ![8192, 4096]⟩)
    (h2 : (⟨1, ![4096]⟩ : Shape).ShapeCasts ⟨2, ![1, 4096]⟩)
    (h3 : (⟨2, ![8192, 4096]⟩ : Shape).ShapeCasts ⟨3, ![4, 2048, 4096]⟩)
    (x : (⟨3, ![4, 2048, 4096]⟩ : Shape).Idx → EReal) (w : (⟨2, ![4096, 4096]⟩ : Shape).Idx → EReal)
    (bias : (⟨1, ![4096]⟩ : Shape).Idx → EReal) : (⟨3, ![4, 2048, 4096]⟩ : Shape).Idx → EReal :=
  shapeCast ⟨3, ![4, 2048, 4096]⟩
    (linear z (shapeCast ⟨2, ![8192, 4096]⟩ x h1) w (shapeCast ⟨2, ![1, 4096]⟩ bias h2)) h3

/-- Its entry (b, s, o): `z` plus the inner product of x[b, s, ·] with row o of w, plus bias[o]. -/
theorem layer_apply (z : EReal) (h1 : (⟨3, ![4, 2048, 4096]⟩ : Shape).ShapeCasts ⟨2, ![8192, 4096]⟩)
    (h2 : (⟨1, ![4096]⟩ : Shape).ShapeCasts ⟨2, ![1, 4096]⟩)
    (h3 : (⟨2, ![8192, 4096]⟩ : Shape).ShapeCasts ⟨3, ![4, 2048, 4096]⟩)
    (x : (⟨3, ![4, 2048, 4096]⟩ : Shape).Idx → EReal) (w : (⟨2, ![4096, 4096]⟩ : Shape).Idx → EReal)
    (bias : (⟨1, ![4096]⟩ : Shape).Idx → EReal) (b : Fin 4) (s : Fin 2048) (o : Fin 4096) :
    layer z h1 h2 h3 x w bias (ix3 b s o) = (z + ∑ k : Fin 4096, x (ix3 b s k) * w (ix2 o k)) + bias (ix1 o) := by
  have hr : 2048 * b.val + s.val < 8192 := by omega
  unfold layer
  rw [unfold_rows_apply _ h3 b s o hr, linear_apply, shapeCast_a_1a_apply bias h2 (0 : Fin 1) o]
  refine congrArg (fun t => (z + t) + bias (ix1 o)) (Finset.sum_congr rfl fun k _ => ?_)
  rw [fold_rows_apply x h1 b s k hr]

end Cert.Linear

end
-- ==== Proof.KernelValue.lean ====
/-
  What the kernel's program computes: its result array is the layer of its arguments.

  The pipeline writes the output tile back at the last point of every run of four, and those tiles — rows 1024 i …,
  columns 1024 j … over all (i, j) — cover the 8192 × 4096 result. Each written tile is the layer's tile (the accumulation
  over the run), so the result array is the layer of the three operand arrays as the region finds them: x with its two
  leading axes folded, the weight matrix (the table lookup reshaped, its narrowing to bf16 the identity on extended reals),
  the bias laid out as one row. The program's last line unfolds the rows again.
-/
import proofs.«161693_j6751688589354_1_alg».proof.Proof.Accumulate
import proofs.«161693_j6751688589354_1_alg».proof.Proof.Layer
import Idealize.ShloMosaic.Lib.StableHlo.Run
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.Linear Cert.KernelIdeal.Blocks Cert.KernelIdeal.Accumulate

variable (m : (ℓ : Loc nD τ sig) → Buf (Elt Ideal) ℓ) (ρ : Dev nD → PrngReg)

/-- The result matrix: the blocked layer of the operand arrays as the region finds them. -/
abbrev resultMat (c : Dev nD) : (⟨2, ![8192, 4096]⟩ : Shape).Idx → EReal :=
  linear zero (xMat m c) (wMat m c) (bRow m c)

/-- An index of the result lies in point t's output block iff each coordinate lies in the block's range. -/
theorem mem_out_block (t : Fin cfg0.N) (i : S8192x4096.Idx) :
    i ∈ ((cfg0.win 3).blk t).view.set
      ↔ ∀ a : Fin 2, win0_3.index t a * S1024x1024.size a ≤ (i a).val
          ∧ (i a).val < win0_3.index t a * S1024x1024.size a + S1024x1024.size a := by
  show i ∈ ((View.whole main_v11).slice (win0_3.rect t)).set ↔ _
  rw [View.set_slice_whole, Rect.mem_set_unit]
  exact Iff.rfl

/-- What a point that writes back writes: its block of the result matrix. -/
theorem flushed_eq (c : Dev nD) (t : Fin cfg0.N) (hf : (cfg0.win 3).flush t = true) :
    (dats m 0 c).flushed 3 t = ((cfg0.win 3).blk t).view.read (Elt Ideal) (resultMat m c) := by
  have h3 : t.val % 4 = 3 := (flush0_3 t).mp hf
  have hN : t.val < 128 := lt_of_lt_of_eq t.isLt (show cfg0.N = 128 from N_0)
  obtain ⟨-, -, -, -, -, -, e0, e1⟩ := index_facts t
  show (cfg0.win 3).cut (grid0.coords t) ((dats m 0 c).after 3 t) = _
  rw [after0_3]
  funext j
  obtain ⟨p, q, rfl⟩ : ∃ p q : Fin 1024, j = ix2 p q := ⟨j 0, j 1, eq_ix2 j⟩
  show ((outsAt0 m c t.val t.isLt).1 : S1024x1024.Idx → EReal) (ix2 p q)
    = resultMat m c (((cfg0.win 3).blk t).view.emb (ix2 p q))
  rw [out_at_last m c t h3 p q (by omega) (by omega)]
  refine congrArg (resultMat m c) (funext fun a => Fin.ext ?_)
  match a with
  | ⟨0, _⟩ => show 1024 * (t.val / 16) + p.val = win0_3.index t (0 : Fin 2) * 1024 + 1 * p.val; omega
  | ⟨1, _⟩ => show 1024 * (t.val / 4 % 4) + q.val = win0_3.index t (1 : Fin 2) * 1024 + 1 * q.val; omega

/-- Every index of the result is in the block some writing point writes: the last point of run (i / 1024, j / 1024). -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3, by rw [hN]; omega⟩, rfl⟩
  obtain ⟨-, -, -, -, -, -, e0, e1⟩ := index_facts t
  refine ⟨t, (flush0_3 t).mpr (by omega), ?_⟩
  rw [mem_out_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- So the result array ends holding the result matrix. -/
theorem final (c : Dev nD) : (dats m 0 c).arrAt 3 cfg0.N = resultMat m c :=
  (dats m 0 c).arrAt_eq_of_cover 3 (resultMat m c) (flushed_eq m c) covered

/-! ## The operand arrays as the region finds them -/

/-- The weight matrix of the layer, from the codebook and the labels: the table lookup (negative labels wrapped once,
    the gather's own clamping left as it is), reshaped to 4096 × 4096 and narrowed to bf16. Carried as one term. -/
def weights (x1 : (⟨S256x16, .f32⟩ : BufTy).Contents (Elt Ideal)) (x2 : (⟨S1048576, .i32⟩ : BufTy).Contents (Elt Ideal)) :
    (⟨2, ![4096, 4096]⟩ : Shape).Idx → EReal :=
  truncf (F := Ideal) .bf16
    (shapeCast S4096x4096
      (Host.gather gather_S256x16_S1048576x1_S1048576x16_1_0_n_n_0_1_116 x1
        (broadcastInDim S1048576x1 ![0] bcast_S1048576_S1048576x1_0
          (select (cmpi .slt x2 (broadcastInDim S1048576 ![] bcast_S_S1048576 (constantI S_ 32 0#32)))
            (addi x2 (broadcastInDim S1048576 ![] bcast_S_S1048576 (constantI S_ 32 256#32))) x2)))
      shapeCasts_S1048576x16_S4096x4096)
    bitsLt_bf16_f32

/-- x enters the region with its two leading axes folded. -/
theorem x_entry (c : Dev nD) : xMat m c
    = shapeCast S8192x4096 (m ((c : Thread nD τ).loc main_arg0)) shapeCasts_S4x2048x4096_S8192x4096 := by
  show StableHlo.after hostOps0 (fun b => m (c, b)) (Proc.devRef .tc main_v9) = _
  after_results
  rfl

/-- The bias enters as one row. -/
theorem b_entry (c : Dev nD) : bRow m c
    = shapeCast S1x4096 (m ((c : Thread nD τ).loc main_arg3)) shapeCasts_S4096_S1x4096 := by
  show StableHlo.after hostOps0 (fun b => m (c, b)) (Proc.devRef .tc main_v10) = _
  after_results
  rfl

/-- The weight operand is the weight matrix of the codebook and the labels. -/
theorem w_entry (c : Dev nD) : wMat m c
    = weights (m ((c : Thread nD τ).loc main_arg1)) (m ((c : Thread nD τ).loc main_arg2)) := by
  show StableHlo.after hostOps0 (fun b => m (c, b)) (Proc.devRef .tc main_v8) = _
  after_results
  rfl

/-! ## The program's result -/

/-- THE RESULT: the layer of the program's arguments. -/
abbrev result (c : Dev nD) : (⟨3, ![4, 2048, 4096]⟩ : Shape).Idx → EReal :=
  layer zero shapeCasts_S4x2048x4096_S8192x4096 shapeCasts_S4096_S1x4096 shapeCasts_S8192x4096_S4x2048x4096
    (m ((c : Thread nD τ).loc main_arg0))
    (weights (m ((c : Thread nD τ).loc main_arg1)) (m ((c : Thread nD τ).loc main_arg2)))
    (m ((c : Thread nD τ).loc main_arg3))

/-- The line after the region unfolds the rows of the result matrix: the program's result buffer ends at the layer. -/
theorem tail_eq (c : Dev nD) :
    Pipeline.afterTail₀ cfgs (dats m) 0 (V0 m) [hostOps1] c main_v12 = result m c := by
  unfold Pipeline.afterTail₀
  show StableHlo.after hostOps1 _ (Proc.devRef .tc main_v12) = _
  after_results
  have e : Pipeline.withArrays (cfgs 0).spec c (V0 m c) (fun w => (dats m 0 c).arrAt w (cfgs 0).N)
      (Proc.devRef .tc main_v11) = resultMat m c :=
    (Pipeline.withArrays_arr spec0 launch0.win.arr_inj c _ _ 3).trans (final m c)
  rw [e]
  unfold resultMat
  rw [x_entry, b_entry, w_entry]
  rfl

/-- The run, read: the result buffer at the layer of the arguments, the arguments unchanged. -/
theorem run : θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.RefValue.lean ====
/-
  The reference computes the layer.

  Its result at (b, s, o) is the host's whole contraction  Σ_{k < 4096} x[b, s, k] · W[o, k]  plus the bias broadcast
  along the two leading axes, bias[o]; W is the table lookup reshaped to 4096 × 4096, which is carried as it stands.
  The layer's entry is the same with a leading zero, which vanishes.
-/
import proofs.«161693_j6751688589354_1_alg».proof.Proof.Gen.ReferenceIdeal.Read
import proofs.«161693_j6751688589354_1_alg».proof.Proof.Layer

noncomputable section

open scoped BigOperators
open Idealize.ShloMosaic Idealize.ShloMosaic.ValueIdx

namespace Cert.ReferenceIdeal.RefValue

open Cert.ReferenceIdeal Cert.ReferenceIdeal.Read Cert.Linear

/-- The reference's result is the layer of its arguments, with the weight matrix its own reshaped lookup. -/
theorem result_eq (h1 : (⟨3, ![4, 2048, 4096]⟩ : Shape).ShapeCasts ⟨2, ![8192, 4096]⟩)
    (h2 : (⟨1, ![4096]⟩ : Shape).ShapeCasts ⟨2, ![1, 4096]⟩)
    (h3 : (⟨2, ![8192, 4096]⟩ : Shape).ShapeCasts ⟨3, ![4, 2048, 4096]⟩)
    (x0 : (⟨S4x2048x4096, .f32⟩ : BufTy).Contents (Elt Ideal)) (x1 : (⟨S256x16, .f32⟩ : BufTy).Contents (Elt Ideal))
    (x2 : (⟨S1048576, .i32⟩ : BufTy).Contents (Elt Ideal)) (x3 : (⟨S4096, .f32⟩ : BufTy).Contents (Elt Ideal)) :
    val_main_v11 (F := Ideal) x0 x1 x2 x3
      = layer (Ideal.ofBits .f32 0x00000000#32) h1 h2 h3 x0 (val_main_v7 (F := Ideal) x1 x2) x3 := by
  funext i
  obtain ⟨b, s, o, rfl⟩ : ∃ (b : Fin 4) (s : Fin 2048) (o : Fin 4096), i = ix3 b s o := ⟨i 0, i 1, i 2, eq_ix3 i⟩
  rw [layer_apply, Ideal.ofBits_zero_f32, zero_add]
  rw [val_main_v11_apply, val_main_v8_apply, val_main_v10_apply, val_main_v9_apply]
  have el : ∀ k : Fin 4096, lidx_main_v8 (ix3 b s o) k = ix3 b s k := fun k => funext fun a => Fin.ext (by
    match a with
    | ⟨0, _⟩ => rfl
    | ⟨1, _⟩ => rfl
    | ⟨2, _⟩ => rfl)
  have er : ∀ k : Fin 4096, ridx_main_v8 (ix3 b s o) k = ix2 o k := fun k => funext fun a => Fin.ext (by
    match a with
    | ⟨0, _⟩ => rfl
    | ⟨1, _⟩ => rfl)
  have eb : idx_main_v9 (idx_main_v10 (ix3 b s o)) = ix1 o := funext fun a => Fin.ext (by
    match a with
    | ⟨0, _⟩ => rfl)
  simp only [el, er, eb]
  rfl

end Cert.ReferenceIdeal.RefValue

end
-- ==== Proof.lean ====
/-
  A dense layer with a codebook-compressed weight matrix: the tiled kernel and the einsum reference agree on the
  extended reals.

  Both programs build the 4096 × 4096 weight matrix W by the same table lookup: each of the 1,048,576 labels picks a row
  of 16 numbers from the 256 × 16 codebook (a negative label wrapped once by 256), and the rows are laid out row-major.
  The reference then contracts x[b, s, ·] with W[o, ·] over all 4096 columns at once and adds bias[o]. The kernel folds the
  two leading axes of x into 8192 rows, walks a grid of 8 × 4 × 4 tiles of 1024 × 1024, and for each output tile
  accumulates, over the four blocks of the contraction axis in order, the product of an x tile with the transposed W
  tile (both read as bf16, which on extended reals is the identity), starting from zero and adding the bias row after the
  last block; its last line unfolds the 8192 rows to 4 × 2048.

  So entry (b, s, o) of the kernel's result is  ((((0 + S₀) + S₁) + S₂) + S₃) + bias[o]  with
  S_k = Σ_{l < 1024} x[b, s, 1024 k + l] · W[o, 1024 k + l],  and the reference's is  Σ_{k < 4096} x[b, s, k] · W[o, k] + bias[o].
  Addition of extended reals is associative and commutative, so the four block sums are the whole sum: no cancellation
  and no finiteness of the inputs is used, and W is never opened — it is the same term on both sides.

  Modules: BlockedDot (the blocked sum is the whole sum), Layer (the reshapes only rename indices), Payloads (the body's
  three stored values at an entry), Pieces (what each control case leaves), Blocks (where each tile sits), Accumulate (the
  accumulator over a run of four grid points), KernelValue (the result array and the program's run), RefValue (the
  reference is the layer).
-/
import proofs.«161693_j6751688589354_1_alg».proof.Defs
import proofs.«161693_j6751688589354_1_alg».proof.Proof.Gen.Kernel
import proofs.«161693_j6751688589354_1_alg».proof.Proof.Gen.Kernel.Frame
import proofs.«161693_j6751688589354_1_alg».proof.Proof.Gen.KernelIdeal
import proofs.«161693_j6751688589354_1_alg».proof.Proof.Gen.KernelIdeal.Frame
import proofs.«161693_j6751688589354_1_alg».proof.Proof.Gen.ReferenceIdeal
import proofs.«161693_j6751688589354_1_alg».proof.Proof.Gen.ReferenceIdeal.Run
import proofs.«161693_j6751688589354_1_alg».proof.Proof.Gen.ReferenceIdeal.Read
import proofs.«161693_j6751688589354_1_alg».proof.Proof.Gen.Pre_finite_inputs
import proofs.«161693_j6751688589354_1_alg».proof.Proof.KernelValue
import proofs.«161693_j6751688589354_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- The two programs' weight matrices are one term of the codebook and the labels (the kernel's narrowing to bf16 is the
    identity on extended reals). -/
theorem weights_eq (x1 : (⟨Cert.ReferenceIdeal.S256x16, .f32⟩ : BufTy).Contents (Elt Ideal))
    (x2 : (⟨Cert.ReferenceIdeal.S1048576, .i32⟩ : BufTy).Contents (Elt Ideal)) :
    Cert.ReferenceIdeal.Read.val_main_v7 (F := Ideal) x1 x2 = Cert.KernelIdeal.KernelValue.weights x1 x2 := rfl

/-- From memories that agree on the arguments both programs end with the layer of those arguments in their result. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  rw [Cert.ReferenceIdeal.Read.val_main_v11_eq,
    Cert.ReferenceIdeal.RefValue.result_eq Cert.KernelIdeal.Gen.shapeCasts_S4x2048x4096_S8192x4096
      Cert.KernelIdeal.Gen.shapeCasts_S4096_S1x4096 Cert.KernelIdeal.Gen.shapeCasts_S8192x4096_S4x2048x4096,
    weights_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
